-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12288x64 : Shape := ⟨3, ![8, 12288, 64]⟩
abbrev S147456 : Shape := ⟨1, ![147456]⟩
abbrev S49152x9 : Shape := ⟨2, ![49152, 9]⟩
abbrev S32x576 : Shape := ⟨2, ![32, 576]⟩
abbrev S32 : Shape := ⟨1, ![32]⟩
abbrev S_ : Shape := ⟨0, ![]⟩

class Facts : Prop where
  bcast_S_S8x12288x64 : S_.BroadcastsInDim S8x12288x64 (![] : Fin 0 → Fin S8x12288x64.rank)
  reducesTo_S8x12288x64_S_d0_1_2 : S8x12288x64.ReducesTo [0, 1, 2] S_
  h_S_ : 0 < S_.numel
  bcast_S_S147456 : S_.BroadcastsInDim S147456 (![] : Fin 0 → Fin S147456.rank)
  reducesTo_S147456_S_d0 : S147456.ReducesTo [0] S_
  bcast_S_S32x576 : S_.BroadcastsInDim S32x576 (![] : Fin 0 → Fin S32x576.rank)
  reducesTo_S32x576_S_d0_1 : S32x576.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S8x12288x64 .f32) (main_arg1 : IVec S147456 32) (main_arg2 : IVec S147456 32) (main_arg3 : FVec F S147456 .f32) (main_arg4 : IVec S49152x9 32) (main_arg5 : FVec F S32x576 .f32) (main_arg6 : FVec F S32 .f32) : IVec S_ 1 :=
  let main_v0 : FVec F S8x12288x64 .f32 := Host.absf main_arg0
  let main_cst : FVec F S_ .f32 := constant S_ .f32 0x7F800000#32
  let main_v1 : FVec F S8x12288x64 .f32 := broadcastInDim S8x12288x64 ![] bcast_S_S8x12288x64 main_cst
  let main_v2 : IVec S8x12288x64 1 := cmpf .olt main_v0 main_v1
  let main_c : IVec S_ 1 := constantI S_ 1 1#1
  let main_v3 : IVec S_ 1 := (fun x v => Host.reduce IntOp.andi x v reducesTo_S8x12288x64_S_d0_1_2 h_S_) main_v2 main_c
  let main_v4 : FVec F S147456 .f32 := Host.absf main_arg3
  let main_cst_0 : FVec F S_ .f32 := constant S_ .f32 0x7F800000#32
  let main_v5 : FVec F S147456 .f32 := broadcastInDim S147456 ![] bcast_S_S147456 main_cst_0
  let main_v6 : IVec S147456 1 := cmpf .olt main_v4 main_v5
  let main_c_1 : IVec S_ 1 := constantI S_ 1 1#1
  let main_v7 : IVec S_ 1 := (fun x v => Host.reduce IntOp.andi x v reducesTo_S147456_S_d0 h_S_) main_v6 main_c_1
  let main_v8 : IVec S_ 1 := andi main_v3 main_v7
  let main_v9 : FVec F S32x576 .f32 := Host.absf main_arg5
  let main_cst_2 : FVec F S_ .f32 := constant S_ .f32 0x7F800000#32
  let main_v10 : FVec F S32x576 .f32 := broadcastInDim S32x576 ![] bcast_S_S32x576 main_cst_2
  let main_v11 : IVec S32x576 1 := cmpf .olt main_v9 main_v10
  let main_c_3 : IVec S_ 1 := constantI S_ 1 1#1
  let main_v12 : IVec S_ 1 := (fun x v => Host.reduce IntOp.andi x v reducesTo_S32x576_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S8x12288x64 : Shape := ⟨3, ![8, 12288, 64]⟩
abbrev S147456 : Shape := ⟨1, ![147456]⟩
abbrev S49152x9 : Shape := ⟨2, ![49152, 9]⟩
abbrev S32x576 : Shape := ⟨2, ![32, 576]⟩
abbrev S32 : Shape := ⟨1, ![32]⟩
abbrev S_ : Shape := ⟨0, ![]⟩
abbrev S147456x1 : Shape := ⟨2, ![147456, 1]⟩
abbrev S8x147456x64 : Shape := ⟨3, ![8, 147456, 64]⟩
abbrev S1x147456x1 : Shape := ⟨3, ![1, 147456, 1]⟩
abbrev S49152x64 : Shape := ⟨2, ![49152, 64]⟩
abbrev S8x49152x64 : Shape := ⟨3, ![8, 49152, 64]⟩
abbrev S442368 : Shape := ⟨1, ![442368]⟩
abbrev S442368x1 : Shape := ⟨2, ![442368, 1]⟩
abbrev S8x442368x64 : Shape := ⟨3, ![8, 442368, 64]⟩
abbrev S8x49152x576 : Shape := ⟨3, ![8, 49152, 576]⟩
abbrev S393216x576 : Shape := ⟨2, ![393216, 576]⟩
abbrev S576x32 : Shape := ⟨2, ![576, 32]⟩
abbrev S1x32 : Shape := ⟨2, ![1, 32]⟩
abbrev S393216x32 : Shape := ⟨2, ![393216, 32]⟩
abbrev S8x49152x32 : Shape := ⟨3, ![8, 49152, 32]⟩
abbrev S4096x576 : Shape := ⟨2, ![4096, 576]⟩
abbrev S4096x32 : Shape := ⟨2, ![4096, 32]⟩

abbrev nBuf : Space → Nat
  | .hbm => 41
  | .vmem => 6
  | .smem => 0
  | _ => 0

abbrev bufTy : (tb : Table) → Fin (tcTables nBuf tb) → BufTy
  | .hbm, ⟨0, _⟩ => ⟨S8x12288x64, .f32⟩
  | .hbm, ⟨1, _⟩ => ⟨S147456, .i32⟩
  | .hbm, ⟨2, _⟩ => ⟨S147456, .i32⟩
  | .hbm, ⟨3, _⟩ => ⟨S147456, .f32⟩
  | .hbm, ⟨4, _⟩ => ⟨S49152x9, .i32⟩
  | .hbm, ⟨5, _⟩ => ⟨S32x576, .f32⟩
  | .hbm, ⟨6, _⟩ => ⟨S32, .f32⟩
  | .hbm, ⟨7, _⟩ => ⟨S_, .i32⟩
  | .hbm, ⟨8, _⟩ => ⟨S147456, .i32⟩
  | .hbm, ⟨9, _⟩ => ⟨S147456, .i1⟩
  | .hbm, ⟨10, _⟩ => ⟨S_, .i32⟩
  | .hbm, ⟨11, _⟩ => ⟨S147456, .i32⟩
  | .hbm, ⟨12, _⟩ => ⟨S147456, .i32⟩
  | .hbm, ⟨13, _⟩ => ⟨S147456, .i32⟩
  | .hbm, ⟨14, _⟩ => ⟨S147456x1, .i32⟩
  | .hbm, ⟨15, _⟩ => ⟨S8x147456x64, .f32⟩
  | .hbm, ⟨16, _⟩ => ⟨S1x147456x1, .f32⟩
  | .hbm, ⟨17, _⟩ => ⟨S8x147456x64, .f32⟩
  | .hbm, ⟨18, _⟩ => ⟨S8x147456x64, .f32⟩
  | .hbm, ⟨19, _⟩ => ⟨S_, .f32⟩
  | .hbm, ⟨20, _⟩ => ⟨S49152x64, .f32⟩
  | .hbm, ⟨21, _⟩ => ⟨S147456x1, .i32⟩
  | .hbm, ⟨22, _⟩ => ⟨S8x49152x64, .f32⟩
  | .hbm, ⟨23, _⟩ => ⟨S8x49152x64, .f32⟩
  | .hbm, ⟨24, _⟩ => ⟨S8x49152x64, .bf16⟩
  | .hbm, ⟨25, _⟩ => ⟨S442368, .i32⟩
  | .hbm, ⟨26, _⟩ => ⟨S_, .i32⟩
  | .hbm, ⟨27, _⟩ => ⟨S442368, .i32⟩
  | .hbm, ⟨28, _⟩ => ⟨S442368, .i1⟩
  | .hbm, ⟨29, _⟩ => ⟨S_, .i32⟩
  | .hbm, ⟨30, _⟩ => ⟨S442368, .i32⟩
  | .hbm, ⟨31, _⟩ => ⟨S442368, .i32⟩
  | .hbm, ⟨32, _⟩ => ⟨S442368, .i32⟩
  | .hbm, ⟨33, _⟩ => ⟨S442368x1, .i32⟩
  | .hbm, ⟨34, _⟩ => ⟨S8x442368x64, .bf16⟩
  | .hbm, ⟨35, _⟩ => ⟨S8x49152x576, .bf16⟩
  | .hbm, ⟨36, _⟩ => ⟨S393216x576, .bf16⟩
  | .hbm, ⟨37, _⟩ => ⟨S576x32, .f32⟩
  | .hbm, ⟨38, _⟩ => ⟨S1x32, .f32⟩
  | .hbm, ⟨39, _⟩ => ⟨S393216x32, .f32⟩
  | .hbm, ⟨40, _⟩ => ⟨S8x49152x32, .f32⟩
  | .local _ .vmem, ⟨0, _⟩ => ⟨S4096x576, .bf16⟩
  | .local _ .vmem, ⟨1, _⟩ => ⟨S4096x576, .bf16⟩
  | .local _ .vmem, ⟨2, _⟩ => ⟨S576x32, .f32⟩
  | .local _ .vmem, ⟨3, _⟩ => ⟨S1x32, .f32⟩
  | .local _ .vmem, ⟨4, _⟩ => ⟨S4096x32, .f32⟩
  | .local _ .vmem, ⟨5, _⟩ => ⟨S4096x32, .f32⟩
  | _, _ => ⟨S8x12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_cst : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_c_1 : Ref sig .tc := ⟨.hbm, 26, rfl⟩
abbrev main_call0_v16 : Ref sig .tc := ⟨.hbm, 27, rfl⟩
abbrev main_call0_v17 : Ref sig .tc := ⟨.hbm, 28, rfl⟩
abbrev main_call0_c_2 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_v0 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S147456 : S_.BroadcastsInDim S147456 (![] : Fin 0 → Fin S147456.rank)
  bcast_S147456_S147456x1_0 : S147456.BroadcastsInDim S147456x1 (![0] : Fin 1 → Fin S147456x1.rank)
  bcast_S147456_S1x147456x1_1 : S147456.BroadcastsInDim S1x147456x1 (![1] : Fin 1 → Fin S1x147456x1.rank)
  bcast_S1x147456x1_S8x147456x64_0_1_2 : S1x147456x1.BroadcastsInDim S8x147456x64 (![0, 1, 2] : Fin 3 → Fin S8x147456x64.rank)
  bcast_S_S49152x64 : S_.BroadcastsInDim S49152x64 (![] : Fin 0 → Fin S49152x64.rank)
  bcast_S49152x64_S8x49152x64_1_2 : S49152x64.BroadcastsInDim S8x49152x64 (![1, 2] : Fin 2 → Fin S8x49152x64.rank)
  bitsLt_bf16_f32 : FTy.bits .bf16 < FTy.bits .f32
  shapeCasts_S49152x9_S442368 : S49152x9.ShapeCasts S442368
  bcast_S_S442368 : S_.BroadcastsInDim S442368 (![] : Fin 0 → Fin S442368.rank)
  bcast_S442368_S442368x1_0 : S442368.BroadcastsInDim S442368x1 (![0] : Fin 1 → Fin S442368x1.rank)
  shapeCasts_S8x442368x64_S8x49152x576 : S8x442368x64.ShapeCasts S8x49152x576
  shapeCasts_S8x49152x576_S393216x576 : S8x49152x576.ShapeCasts S393216x576
  transposes_S32x576_S576x32_1_0 : S32x576.Transposes [1, 0] S576x32
  shapeCasts_S32_S1x32 : S32.ShapeCasts S1x32
  shapeCasts_S393216x32_S8x49152x32 : S393216x32.ShapeCasts S8x49152x32
  inb_S4096x576_S4096x576_0_0 : ∀ a, (![0, 0] : Fin 2 → Nat) a + S4096x576.size a ≤ S4096x576.size a
  h_S4096x576 : 0 < S4096x576.numel
  shapeCasts_S4096x576_S4096x576 : S4096x576.ShapeCasts S4096x576
  inb_S576x32_S576x32_0_0 : ∀ a, (![0, 0] : Fin 2 → Nat) a + S576x32.size a ≤ S576x32.size a
  h_S576x32 : 0 < S576x32.numel
  shapeCasts_S576x32_S576x32 : S576x32.ShapeCasts S576x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S4096x32_S4096x32_0_0 : ∀ a, (![0, 0] : Fin 2 → Nat) a + S4096x32.size a ≤ S4096x32.size a
  h_S4096x32 : 0 < S4096x32.numel
  gather_S8x12288x64_S147456x1_S8x147456x64_02_1_n_n_1_1_8164_wf : GatherDims.WF S8x12288x64 S147456x1 S8x147456x64 [0, 2] [1] [] [1] [] 1 ![8, 1, 64]
  scatter_S8x49152x64_S147456x1_S8x147456x64_02_1_1_1_wf : ScatterDims.WF S8x49152x64 S147456x1 S8x147456x64 [0, 2] [1] [1] 1
  gather_S8x49152x64_S442368x1_S8x442368x64_02_1_n_n_1_1_8164_wf : GatherDims.WF S8x49152x64 S442368x1 S8x442368x64 [0, 2] [1] [] [1] [] 1 ![8, 1, 64]
  dot_S4096x576_S576x32_S4096x32_1_0_0_1_n_n_wf : DotDims.WF S4096x576 S576x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x576.size a ≤ S393216x576.size a
  hwx0_0 : ∀ i : grid0.Coords, EltTy.bits .bf16 = 32 ∨ (Rect.block (s := S393216x576) S4096x576.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x32.size a ≤ S576x32.size a
  hwx0_1 : ∀ i : grid0.Coords, EltTy.bits .f32 = 32 ∨ (Rect.block (s := S576x32) S576x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x32.size a ≤ S393216x32.size a
  hwx0_3 : ∀ i : grid0.Coords, EltTy.bits .f32 = 32 ∨ (Rect.block (s := S393216x32) S4096x32.size (cc0_transform_3 i) (hinb0_3 i)).WholeWords (EltTy.packing .f32)

variable [Facts₀]

def gather_S8x12288x64_S147456x1_S8x147456x64_02_1_n_n_1_1_8164 : GatherDims S8x12288x64 S147456x1 S8x147456x64 where
  offsetDims := [0, 2]
  collapsedSliceDims := [1]
  operandBatchingDims := []
  startIndicesBatchingDims := []
  startIndexMap := [1]
  indexVectorDim := 1
  sliceSizes := ![8, 1, 64]
  wf := gather_S8x12288x64_S147456x1_S8x147456x64_02_1_n_n_1_1_8164_wf
def scatter_S8x49152x64_S147456x1_S8x147456x64_02_1_1_1 : ScatterDims S8x49152x64 S147456x1 S8x147456x64 where
  updateWindowDims := [0, 2]
  insertedWindowDims := [1]
  scatterDimsToOperandDims := [1]
  indexVectorDim := 1
  wf := scatter_S8x49152x64_S147456x1_S8x147456x64_02_1_1_1_wf
def gather_S8x49152x64_S442368x1_S8x442368x64_02_1_n_n_1_1_8164 : GatherDims S8x49152x64 S442368x1 S8x442368x64 where
  offsetDims := [0, 2]
  collapsedSliceDims := [1]
  operandBatchingDims := []
  startIndicesBatchingDims := []
  startIndexMap := [1]
  indexVectorDim := 1
  sliceSizes := ![8, 1, 64]
  wf := gather_S8x49152x64_S442368x1_S8x442368x64_02_1_n_n_1_1_8164_wf
def dot_S4096x576_S576x32_S4096x32_1_0_0_1_n_n : DotDims S4096x576 S576x32 S4096x32 where
  lhsContracting := [1]
  rhsContracting := [0]
  lhsNonContracting := [0]
  rhsNonContracting := [1]
  lhsBatch := []
  rhsBatch := []
  wf := dot_S4096x576_S576x32_S4096x32_1_0_0_1_n_n_wf

abbrev win0_0 : Pipeline.Window sig grid0 :=
  Pipeline.Window.ofSpec (Memref.whole main_call0_v24) S4096x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v25) S576x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v26) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S4096x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x12288x64 : Shape := ⟨3, ![8, 12288, 64]⟩
abbrev S147456 : Shape := ⟨1, ![147456]⟩
abbrev S49152x9 : Shape := ⟨2, ![49152, 9]⟩
abbrev S32x576 : Shape := ⟨2, ![32, 576]⟩
abbrev S32 : Shape := ⟨1, ![32]⟩
abbrev S_ : Shape := ⟨0, ![]⟩
abbrev S147456x1 : Shape := ⟨2, ![147456, 1]⟩
abbrev S8x147456x64 : Shape := ⟨3, ![8, 147456, 64]⟩
abbrev S1x147456x1 : Shape := ⟨3, ![1, 147456, 1]⟩
abbrev S49152x64 : Shape := ⟨2, ![49152, 64]⟩
abbrev S8x49152x64 : Shape := ⟨3, ![8, 49152, 64]⟩
abbrev S442368 : Shape := ⟨1, ![442368]⟩
abbrev S442368x1 : Shape := ⟨2, ![442368, 1]⟩
abbrev S8x442368x64 : Shape := ⟨3, ![8, 442368, 64]⟩
abbrev S8x49152x576 : Shape := ⟨3, ![8, 49152, 576]⟩
abbrev S8x49152x32 : Shape := ⟨3, ![8, 49152, 32]⟩
abbrev S1x1x32 : Shape := ⟨3, ![1, 1, 32]⟩

abbrev nBuf : Space → Nat
  | .hbm => 42
  | .vmem => 0
  | .smem => 0
  | _ => 0

abbrev bufTy : (tb : Table) → Fin (tcTables nBuf tb) → BufTy
  | .hbm, ⟨0, _⟩ => ⟨S8x12288x64, .f32⟩
  | .hbm, ⟨1, _⟩ => ⟨S147456, .i32⟩
  | .hbm, ⟨2, _⟩ => ⟨S147456, .i32⟩
  | .hbm, ⟨3, _⟩ => ⟨S147456, .f32⟩
  | .hbm, ⟨4, _⟩ => ⟨S49152x9, .i32⟩
  | .hbm, ⟨5, _⟩ => ⟨S32x576, .f32⟩
  | .hbm, ⟨6, _⟩ => ⟨S32, .f32⟩
  | .hbm, ⟨7, _⟩ => ⟨S_, .i32⟩
  | .hbm, ⟨8, _⟩ => ⟨S147456, .i32⟩
  | .hbm, ⟨9, _⟩ => ⟨S147456, .i1⟩
  | .hbm, ⟨10, _⟩ => ⟨S_, .i32⟩
  | .hbm, ⟨11, _⟩ => ⟨S147456, .i32⟩
  | .hbm, ⟨12, _⟩ => ⟨S147456, .i32⟩
  | .hbm, ⟨13, _⟩ => ⟨S147456, .i32⟩
  | .hbm, ⟨14, _⟩ => ⟨S147456x1, .i32⟩
  | .hbm, ⟨15, _⟩ => ⟨S8x147456x64, .f32⟩
  | .hbm, ⟨16, _⟩ => ⟨S1x147456x1, .f32⟩
  | .hbm, ⟨17, _⟩ => ⟨S8x147456x64, .f32⟩
  | .hbm, ⟨18, _⟩ => ⟨S8x147456x64, .f32⟩
  | .hbm, ⟨19, _⟩ => ⟨S_, .f32⟩
  | .hbm, ⟨20, _⟩ => ⟨S49152x64, .f32⟩
  | .hbm, ⟨21, _⟩ => ⟨S147456x1, .i32⟩
  | .hbm, ⟨22, _⟩ => ⟨S8x49152x64, .f32⟩
  | .hbm, ⟨23, _⟩ => ⟨S8x49152x64, .f32⟩
  | .hbm, ⟨24, _⟩ => ⟨S442368, .i32⟩
  | .hbm, ⟨25, _⟩ => ⟨S_, .i32⟩
  | .hbm, ⟨26, _⟩ => ⟨S442368, .i32⟩
  | .hbm, ⟨27, _⟩ => ⟨S442368, .i1⟩
  | .hbm, ⟨28, _⟩ => ⟨S_, .i32⟩
  | .hbm, ⟨29, _⟩ => ⟨S442368, .i32⟩
  | .hbm, ⟨30, _⟩ => ⟨S442368, .i32⟩
  | .hbm, ⟨31, _⟩ => ⟨S442368, .i32⟩
  | .hbm, ⟨32, _⟩ => ⟨S442368x1, .i32⟩
  | .hbm, ⟨33, _⟩ => ⟨S8x442368x64, .f32⟩
  | .hbm, ⟨34, _⟩ => ⟨S8x49152x576, .f32⟩
  | .hbm, ⟨35, _⟩ => ⟨S8x49152x32, .f32⟩
  | .hbm, ⟨36, _⟩ => ⟨S1x1x32, .f32⟩
  | .hbm, ⟨37, _⟩ => ⟨S8x49152x32, .f32⟩
  | .hbm, ⟨38, _⟩ => ⟨S8x49152x32, .f32⟩
  | .hbm, ⟨39, _⟩ => ⟨S_, .f32⟩
  | .hbm, ⟨40, _⟩ => ⟨S8x49152x32, .f32⟩
  | .hbm, ⟨41, _⟩ => ⟨S8x49152x32, .f32⟩
  | _, _ => ⟨S8x12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S147456 : S_.BroadcastsInDim S147456 (![] : Fin 0 → Fin S147456.rank)
  bcast_S147456_S147456x1_0 : S147456.BroadcastsInDim S147456x1 (![0] : Fin 1 → Fin S147456x1.rank)
  bcast_S147456_S1x147456x1_1 : S147456.BroadcastsInDim S1x147456x1 (![1] : Fin 1 → Fin S1x147456x1.rank)
  bcast_S1x147456x1_S8x147456x64_0_1_2 : S1x147456x1.BroadcastsInDim S8x147456x64 (![0, 1, 2] : Fin 3 → Fin S8x147456x64.rank)
  bcast_S_S49152x64 : S_.BroadcastsInDim S49152x64 (![] : Fin 0 → Fin S49152x64.rank)
  bcast_S49152x64_S8x49152x64_1_2 : S49152x64.BroadcastsInDim S8x49152x64 (![1, 2] : Fin 2 → Fin S8x49152x64.rank)
  shapeCasts_S49152x9_S442368 : S49152x9.ShapeCasts S442368
  bcast_S_S442368 : S_.BroadcastsInDim S442368 (![] : Fin 0 → Fin S442368.rank)
  bcast_S442368_S442368x1_0 : S442368.BroadcastsInDim S442368x1 (![0] : Fin 1 → Fin S442368x1.rank)
  shapeCasts_S8x442368x64_S8x49152x576 : S8x442368x64.ShapeCasts S8x49152x576
  bcast_S32_S1x1x32_2 : S32.BroadcastsInDim S1x1x32 (![2] : Fin 1 → Fin S1x1x32.rank)
  bcast_S1x1x32_S8x49152x32_0_1_2 : S1x1x32.BroadcastsInDim S8x49152x32 (![0, 1, 2] : Fin 3 → Fin S8x49152x32.rank)
  bcast_S_S8x49152x32 : S_.BroadcastsInDim S8x49152x32 (![] : Fin 0 → Fin S8x49152x32.rank)
  gather_S8x12288x64_S147456x1_S8x147456x64_02_1_n_n_1_1_8164_wf : GatherDims.WF S8x12288x64 S147456x1 S8x147456x64 [0, 2] [1] [] [1] [] 1 ![8, 1, 64]
  scatter_S8x49152x64_S147456x1_S8x147456x64_02_1_1_1_wf : ScatterDims.WF S8x49152x64 S147456x1 S8x147456x64 [0, 2] [1] [1] 1
  gather_S8x49152x64_S442368x1_S8x442368x64_02_1_n_n_1_1_8164_wf : GatherDims.WF S8x49152x64 S442368x1 S8x442368x64 [0, 2] [1] [] [1] [] 1 ![8, 1, 64]
  dot_S8x49152x576_S32x576_S8x49152x32_2_1_01_0_n_n_wf : DotDims.WF S8x49152x576 S32x576 S8x49152x32 [2] [1] [0, 1] [0] [] []

variable [Facts₀]

def gather_S8x12288x64_S147456x1_S8x147456x64_02_1_n_n_1_1_8164 : GatherDims S8x12288x64 S147456x1 S8x147456x64 where
  offsetDims := [0, 2]
  collapsedSliceDims := [1]
  operandBatchingDims := []
  startIndicesBatchingDims := []
  startIndexMap := [1]
  indexVectorDim := 1
  sliceSizes := ![8, 1, 64]
  wf := gather_S8x12288x64_S147456x1_S8x147456x64_02_1_n_n_1_1_8164_wf
def scatter_S8x49152x64_S147456x1_S8x147456x64_02_1_1_1 : ScatterDims S8x49152x64 S147456x1 S8x147456x64 where
  updateWindowDims := [0, 2]
  insertedWindowDims := [1]
  scatterDimsToOperandDims := [1]
  indexVectorDim := 1
  wf := scatter_S8x49152x64_S147456x1_S8x147456x64_02_1_1_1_wf
def gather_S8x49152x64_S442368x1_S8x442368x64_02_1_n_n_1_1_8164 : GatherDims S8x49152x64 S442368x1 S8x442368x64 where
  offsetDims := [0, 2]
  collapsedSliceDims := [1]
  operandBatchingDims := []
  startIndicesBatchingDims := []
  startIndexMap := [1]
  indexVectorDim := 1
  sliceSizes := ![8, 1, 64]
  wf := gather_S8x49152x64_S442368x1_S8x442368x64_02_1_n_n_1_1_8164_wf
def dot_S8x49152x576_S32x576_S8x49152x32_2_1_01_0_n_n : DotDims S8x49152x576 S32x576 S8x49152x32 where
  lhsContracting := [2]
  rhsContracting := [1]
  lhsNonContracting := [0, 1]
  rhsNonContracting := [0]
  lhsBatch := []
  rhsBatch := []
  wf := dot_S8x49152x576_S32x576_S8x49152x32_2_1_01_0_n_n_wf

class Facts : Prop extends Facts₀ where

variable [Facts]
-- ==== Proof.BlockValue.lean ====
/-
  What the kernel body stores, read at one element.

  On a block of 4096 feature rows `x` (576 features each), the whole transposed weight `wT` (576 × 32) and the one-row bias
  `b2`, the body's one store writes, at row `p` and channel `o`,

      max (Σ_{k < 576} x (p, k) · wT (k, o) + b2 (0, o)) 0 :

  the matrix product into a zero accumulator is the plain sum of products over the one contracted axis, the format changes
  on the way in are the identity on extended reals, the bias row is repeated down the 4096 rows, and the final maximum is
  taken against the zero word.
-/
import proofs.«151097_j68521908241109_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The body's matrix product: rows × features times features × channels, one contracted axis of extent 576. -/
abbrev mm : DotDims S4096x576 S576x32 S4096x32 := dot_S4096x576_S576x32_S4096x32_1_0_0_1_n_n

/-- The left operand is read at (output row, contracted coordinate) … -/
theorem lhs_row (j : S4096x32.Idx) (q : mm.contr.Idx) : (mm.lhsIdx j q 0).val = (j 0).val := by
  unfold DotDims.lhsIdx
  rw [dif_neg (show ¬(0 : Fin S4096x576.rank) ∈ mm.lhsBatch by decide), dif_pos (show (0 : Fin S4096x576.rank) ∈ mm.lhsNonContracting by decide)]
  rfl
theorem lhs_feat (j : S4096x32.Idx) (q : mm.contr.Idx) : (mm.lhsIdx j q 1).val = (q ⟨0, by decide⟩).val :=
  mm.lhsIdx_val_of_single rfl j q
/-- … and the right operand at (contracted coordinate, output channel). -/
theorem rhs_feat (j : S4096x32.Idx) (q : mm.contr.Idx) : (mm.rhsIdx j q 0).val = (q ⟨0, by decide⟩).val :=
  mm.rhsIdx_val_of_single rfl j q
theorem rhs_chan (j : S4096x32.Idx) (q : mm.contr.Idx) : (mm.rhsIdx j q 1).val = (j 1).val := by
  unfold DotDims.rhsIdx
  rw [dif_neg (show ¬(1 : Fin S576x32.rank) ∈ mm.rhsBatch by decide), dif_pos (show (1 : Fin S576x32.rank) ∈ mm.rhsNonContracting by decide)]
  rfl

/-- The product into the zero accumulator, at (row, channel), is the sum over the 576 features of the products. -/
theorem mm_apply (x : FVec Ideal S4096x576 .bf16) (y : FVec Ideal S576x32 .bf16) (p : Fin 4096) (o : Fin 32) :
    FloatOps.matmul mm none x y (constant S4096x32 .f32 0x00000000#32) (ix2 p o) = ∑ k : Fin 576, x (ix2 p k) * y (ix2 k o) := by
  rw [Ideal.matmul_constant_zero_apply, ← Equiv.sum_comp (contrEquiv1 mm 576 rfl rfl).symm]
  refine Finset.sum_congr rfl fun k _ => ?_
  have hk := contrEquiv1_symm_val mm 576 rfl rfl k
  have el : mm.lhsIdx (ix2 p o) ((contrEquiv1 mm 576 rfl rfl).symm k) = ix2 p k := funext fun a => Fin.ext (by
    match a with
    | ⟨0, _⟩ => exact lhs_row _ _
    | ⟨1, _⟩ => exact (lhs_feat _ _).trans hk)
  have er : mm.rhsIdx (ix2 p o) ((contrEquiv1 mm 576 rfl rfl).symm k) = ix2 k o := funext fun a => Fin.ext (by
    match a with
    | ⟨0, _⟩ => exact (rhs_feat _ _).trans hk
    | ⟨1, _⟩ => exact rhs_chan _ _)
  rw [el, er]

/-- THE STORED VALUE at (row `p`, channel `o`) of a block. -/
theorem pay_apply (x : FVec Ideal S4096x576 .bf16) (wT : FVec Ideal S576x32 .f32) (b2 : FVec Ideal S1x32 .f32) (p : Fin 4096) (o : Fin 32) :
    k0_pay1 (F := Ideal) x wT b2 (ix2 p o)
      = max ((∑ k : Fin 576, x (ix2 p k) * wT (ix2 k o)) + b2 (ix2 (0 : Fin 1) o)) (Ideal.ofBits .f32 0x00000000#32) := by
  unfold k0_pay1
  show max (FloatOps.matmul mm none (shapeCast S4096x576 x _) (truncf .bf16 (shapeCast S576x32 wT _) _) (constant S4096x32 .f32 0x00000000#32) (ix2 p o)
      + broadcastTo S4096x32 (shapeCast S1x32 b2 _) _ (ix2 p o)) (Ideal.ofBits .f32 0x00000000#32) = _
  rw [shapeCast_self, shapeCast_self, shapeCast_self, mm_apply, broadcastTo_1b_ab_apply]
  rfl

end Cert.KernelIdeal.Block

end
-- ==== Proof.Spec.lean ====
/-
  The last stage of the spiral convolution as ONE function of its operands, on the extended reals.

  For batch `p`, vertex `n` and output channel `o`, with `g` the gathered neighbour features (576 = 9 neighbours × 64
  channels per vertex), `w` the weight matrix and `b` the bias,

      linRelu g w b (p, n, o) = max (Σ_{k < 576} g (p, n, k) · w (o, k) + b o) 0 .

  The same number is reached over the FLATTENED rows `r = p · 49152 + n` of the features, with the weight transposed and the
  bias a one-row matrix: `rowLinRelu`. `linRelu_of_rows` says the two agree once the rows are folded back into (batch, vertex):
  the products and the sum are literally the same, only the indices are arranged differently, so no law of the extended
  reals beyond reading each layout operation at an index is used (in particular nothing needs the inputs finite).
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.SpiralConv

open Idealize.ShloMosaic Idealize.ShloMosaic.ValueIdx

/-- Gathered features per (batch, vertex). -/
abbrev Feat3 : Shape := ⟨3, ![8, 49152, 576]⟩
/-- The same with (batch, vertex) flattened to one row axis. -/
abbrev Feat2 : Shape := ⟨2, ![393216, 576]⟩
/-- The weight, (output channel, feature). -/
abbrev Wt : Shape := ⟨2, ![32, 576]⟩
/-- Its transpose, (feature, output channel). -/
abbrev WtT : Shape := ⟨2, ![576, 32]⟩
/-- The bias, and the bias as a one-row matrix. -/
abbrev Bias : Shape := ⟨1, ![32]⟩
abbrev Bias2 : Shape := ⟨2, ![1, 32]⟩
/-- The result over rows, and per (batch, vertex). -/
abbrev Out2 : Shape := ⟨2, ![393216, 32]⟩
abbrev Out3 : Shape := ⟨3, ![8, 49152, 32]⟩

/-- One output element from the (batch, vertex) form. -/
def linReluAt (g : Feat3.Idx → EReal) (w : Wt.Idx → EReal) (b : Bias.Idx → EReal) (p : Fin 8) (n : Fin 49152) (o : Fin 32) : EReal :=
  max ((∑ k : Fin 576, g (ix3 p n k) * w (ix2 o k)) + b (ix1 o)) (Ideal.ofBits .f32 0x00000000#32)

/-- The whole result, (batch, vertex, channel). -/
def linRelu (g : Feat3.Idx → EReal) (w : Wt.Idx → EReal) (b : Bias.Idx → EReal) : Out3.Idx → EReal :=
  fun i => linReluAt g w b (i 0) (i 1) (i 2)

theorem linRelu_ix (g : Feat3.Idx → EReal) (w : Wt.Idx → EReal) (b : Bias.Idx → EReal) (p : Fin 8) (n : Fin 49152) (o : Fin 32) :
    linRelu g w b (ix3 p n o) = linReluAt g w b p n o := rfl

/-- One output element from the row form: row `r` of the flattened features against column `o` of the transposed weight. -/
def rowLinReluAt (g : Feat2.Idx → EReal) (wT : WtT.Idx → EReal) (b : Bias2.Idx → EReal) (r : Fin 393216) (o : Fin 32) : EReal :=
  max ((∑ k : Fin 576, g (ix2 r k) * wT (ix2 k o)) + b (ix2 (0 : Fin 1) o)) (Ideal.ofBits .f32 0x00000000#32)

/-- The whole result over rows. -/
def rowLinRelu (g : Feat2.Idx → EReal) (wT : WtT.Idx → EReal) (b : Bias2.Idx → EReal) : Out2.Idx → EReal :=
  fun j => rowLinReluAt g wT b (j 0) (j 1)

theorem rowLinRelu_ix (g : Feat2.Idx → EReal) (wT : WtT.Idx → EReal) (b : Bias2.Idx → EReal) (r : Fin 393216) (o : Fin 32) :
    rowLinRelu g wT b (ix2 r o) = rowLinReluAt g wT b r o := rfl

/-- Row `p · 49152 + n` of the flattened features is the features of vertex `n` in batch `p`. -/
theorem flat_feat (g : Feat3.Idx → EReal) (h : Feat3.ShapeCasts Feat2) (p : Fin 8) (n : Fin 49152) (k : Fin 576)
    (r : Fin 393216) (hr : r.val = p.val * 49152 + n.val) :
    shapeCast Feat2 g h (ix2 r k) = g (ix3 p n k) :=
  shapeCast_apply g h _ _ (by
    rw [Shape.rowMajor_val_two, Shape.rowMajor_val_three]
    show (p.val * 49152 + n.val) * 576 + k.val = r.val * 576 + k.val
    rw [hr])

/-- THE TWO FORMS AGREE: the row form of the flattened features, the transposed weight and the one-row bias, folded back to
    (batch, vertex, channel), is `linRelu`. -/
theorem linRelu_of_rows (g : Feat3.Idx → EReal) (w : Wt.Idx → EReal) (b : Bias.Idx → EReal)
    (h1 : Feat3.ShapeCasts Feat2) (h2 : Wt.Transposes [1, 0] WtT) (h3 : Bias.ShapeCasts Bias2) (h4 : Out2.ShapeCasts Out3) :
    shapeCast Out3 (rowLinRelu (shapeCast Feat2 g h1) (transpose WtT [1, 0] w h2) (shapeCast Bias2 b h3)) h4 = linRelu g w b := by
  funext i
  obtain ⟨p, n, o, rfl⟩ : ∃ (p : Fin 8) (n : Fin 49152) (o : Fin 32), i = ix3 p n o := ⟨i 0, i 1, i 2, eq_ix3 i⟩
  have hlt : p.val * 49152 + n.val < 393216 := by have := p.isLt; have := n.isLt; omega
  refine (shapeCast_apply _ h4 (ix3 p n o) (ix2 (⟨p.val * 49152 + n.val, hlt⟩ : Fin 393216) o) ?_).trans ?_
  · rw [Shape.rowMajor_val_two, Shape.rowMajor_val_three]
    rfl
  · rw [rowLinRelu_ix, linRelu_ix]
    unfold rowLinReluAt linReluAt
    rw [shapeCast_a_1a_apply b h3 0 o]
    refine congrArg (fun s => max (s + b (ix1 o)) (Ideal.ofBits .f32 0x00000000#32)) ?_
    refine Finset.sum_congr rfl fun k _ => ?_
    rw [flat_feat g h1 p n k ⟨p.val * 49152 + n.val, hlt⟩ rfl, transpose_ix2_apply w h2 k o]

end Cert.SpiralConv

end
-- ==== Proof.ArrayValue.lean ====
/-
  From blocks to the array: what the region leaves in its result array, rows × channels.

  The grid has 96 points; point `t` works on feature rows `4096·t … 4096·t + 4095` (all 576 features), on the whole transposed
  weight and the whole one-row bias, and writes back result rows `4096·t … 4096·t + 4095` (all 32 channels). So what point `t`
  writes back is block `t` of ONE function of the arrays the region finds — `rowLinRelu` of the flattened features, the
  transposed weight and the bias row — and since row `r` lies in the block of point `r / 4096`, the 96 blocks cover the array:
  after the region the result array IS that function.
-/
import proofs.«151097_j68521908241109_2_alg».proof.Proof.Gen.KernelIdeal.Frame
import proofs.«151097_j68521908241109_2_alg».proof.Proof.BlockValue
import proofs.«151097_j68521908241109_2_alg».proof.Proof.Spec
import Idealize.ShloMosaic.Lib.Pipeline.Value
import Idealize.ShloMosaic.Lib.Tactic

noncomputable section

open scoped BigOperators

namespace Cert.KernelIdeal.Rows

open Cert.KernelIdeal Cert.KernelIdeal.Gen Idealize.ShloMosaic Idealize.ShloMosaic.TcCoe Idealize.SL.Sem Idealize.ShloMosaic.ValueIdx
open Idealize.ShloMosaic.Pipeline (Dat)
open Cert.SpiralConv

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the features and the result move one block of rows per point, the weight and the
    bias stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result over rows, of the arrays as the region finds them. -/
abbrev rowsOf (c : Dev nD) : Out2.Idx → EReal :=
  rowLinRelu (V m c main_call0_v24) (V m c main_call0_v25) (V m c main_call0_v26)

/-- The feature block at point `t` is rows `4096·t + ·` of the flattened features. -/
theorem feat_blk (c : Dev nD) (t : Fin cfg0.N) (x : S4096x576.Idx) (k : S393216x576.Idx)
    (hk0 : (k 0).val = t.val * 4096 + (x 0).val) (hk1 : (k 1).val = (x 1).val) :
    (iblk m c 0 t : Vec Ideal S4096x576 .bf16) x = (V m c main_call0_v24 : S393216x576.Idx → Elt Ideal .bf16) k := by
  obtain ⟨e0, e1, -⟩ := idx_facts t
  unfold iblk
  rw [View.read_apply]
  show V m c main_call0_v24 _ = V m c main_call0_v24 _
  refine congrArg (V m c main_call0_v24) ?_
  funext a
  apply Fin.ext
  match a with
  | ⟨0, _⟩ => show win0_0.index t (0 : Fin 2) * 4096 + 1 * (x 0).val = (k 0).val; rw [e0, hk0]; omega
  | ⟨1, _⟩ => show win0_0.index t (1 : Fin 2) * 576 + 1 * (x 1).val = (k 1).val; rw [e1, hk1]; omega

/-- The weight block at every point is the whole transposed weight. -/
theorem wt_blk (c : Dev nD) (t : Fin cfg0.N) (x : S576x32.Idx) :
    (iblk m c 1 t : Vec Ideal S576x32 .f32) x = (V m c main_call0_v25 : S576x32.Idx → Elt Ideal .f32) x := by
  obtain ⟨-, -, e0, e1, -⟩ := idx_facts t
  unfold iblk
  rw [View.read_apply]
  show V m c main_call0_v25 _ = V m c main_call0_v25 _
  refine congrArg (V m c main_call0_v25) ?_
  funext a
  apply Fin.ext
  match a with
  | ⟨0, _⟩ => show win0_1.index t (0 : Fin 2) * 576 + 1 * (x 0).val = (x 0).val; rw [e0]; omega
  | ⟨1, _⟩ => show win0_1.index t (1 : Fin 2) * 32 + 1 * (x 1).val = (x 1).val; rw [e1]; omega

/-- The bias block at every point is the whole bias row. -/
theorem bias_blk (c : Dev nD) (t : Fin cfg0.N) (x : S1x32.Idx) :
    (iblk m c 2 t : Vec Ideal S1x32 .f32) x = (V m c main_call0_v26 : S1x32.Idx → Elt Ideal .f32) x := by
  obtain ⟨-, -, -, -, e0, e1, -⟩ := idx_facts t
  unfold iblk
  rw [View.read_apply]
  show V m c main_call0_v26 _ = V m c main_call0_v26 _
  refine congrArg (V m c main_call0_v26) ?_
  funext a
  apply Fin.ext
  match a with
  | ⟨0, _⟩ => show win0_2.index t (0 : Fin 2) * 1 + 1 * (x 0).val = (x 0).val; rw [e0]; omega
  | ⟨1, _⟩ => show win0_2.index t (1 : Fin 2) * 32 + 1 * (x 1).val = (x 1).val; rw [e1]; omega

/-- One stored element, over blocks known to be those rows of the arrays: the row form at the array's index `i`, whose row
    is the point's first row plus the row `j 0` inside the block and whose channel is `j 1`. -/
theorem stored_eq (c : Dev nD) (t : Fin cfg0.N) (x0 : FVec Ideal S4096x576 .bf16) (x1 : FVec Ideal S576x32 .f32) (x2 : FVec Ideal S1x32 .f32)
    (h0 : ∀ (x : S4096x576.Idx) (k : S393216x576.Idx), (k 0).val = t.val * 4096 + (x 0).val → (k 1).val = (x 1).val →
      x0 x = (V m c main_call0_v24 : S393216x576.Idx → Elt Ideal .bf16) k)
    (h1 : ∀ x : S576x32.Idx, x1 x = (V m c main_call0_v25 : S576x32.Idx → Elt Ideal .f32) x)
    (h2 : ∀ x : S1x32.Idx, x2 x = (V m c main_call0_v26 : S1x32.Idx → Elt Ideal .f32) x)
    (j : S4096x32.Idx) (i : S393216x32.Idx) (hi0 : (i 0).val = t.val * 4096 + (j 0).val) (hi1 : (i 1).val = (j 1).val) :
    k0_pay1 (F := Ideal) x0 x1 x2 j = rowsOf m c i := by
  obtain ⟨p, o, rfl⟩ : ∃ (p : Fin 4096) (o : Fin 32), j = ix2 p o := ⟨j 0, j 1, eq_ix2 j⟩
  obtain ⟨r, o', rfl⟩ : ∃ (r : Fin 393216) (o' : Fin 32), i = ix2 r o' := ⟨i 0, i 1, eq_ix2 i⟩
  obtain rfl : o' = o := Fin.ext hi1
  have hr : r.val = t.val * 4096 + p.val := hi0
  rw [Block.pay_apply]
  show _ = rowLinReluAt (V m c main_call0_v24) (V m c main_call0_v25) (V m c main_call0_v26) r o'
  unfold rowLinReluAt
  rw [h2 (ix2 (0 : Fin 1) o')]
  refine congrArg (fun s => max (s + (V m c main_call0_v26 : S1x32.Idx → Elt Ideal .f32) (ix2 (0 : Fin 1) o')) (Ideal.ofBits .f32 0x00000000#32)) ?_
  refine Finset.sum_congr rfl fun k _ => ?_
  rw [h0 (ix2 p k) (ix2 r k) hr rfl, h1 (ix2 k o')]

/-- WHAT POINT `t` WRITES BACK is block `t` of the row form of the arrays as the region finds them. -/
theorem flushed_rows (c : Dev nD) (t : Fin cfg0.N) :
    (dats m 0 c).flushed 3 t = ((cfg0.win 3).blk t).view.read (Elt Ideal) (rowsOf m c) := by
  show (cfg0.win 3).cut (grid0.coords t) ((dats m 0 c).after 3 t) = _
  rw [after0_3]
  unfold out0_3
  rw [View.canon_unit_zero hz]
  simp only [View.ld_unit_zero (S := S4096x576) hz, View.ld_unit_zero (S := S576x32) hz, View.ld_unit_zero (S := S1x32) hz]
  obtain ⟨-, -, -, -, -, -, e0, e1⟩ := idx_facts t
  funext j
  show k0_pay1 (F := Ideal) (iblk m c 0 t) (iblk m c 1 t) (iblk m c 2 t) j = rowsOf m c (((cfg0.win 3).blk t).view.emb j)
  refine stored_eq m c t (iblk m c 0 t) (iblk m c 1 t) (iblk m c 2 t) (feat_blk m c t) (wt_blk m c t) (bias_blk m c t) j _ ?_ ?_
  · show win0_3.index t (0 : Fin 2) * 4096 + 1 * (j 0).val = t.val * 4096 + (j 0).val
    rw [e0]; omega
  · show win0_3.index t (1 : Fin 2) * 32 + 1 * (j 1).val = (j 1).val
    rw [e1]; omega

/-- An index of the result array is in point `t`'s block iff each coordinate is in the block's range on its axis. -/
theorem mem_blk (t : Fin cfg0.N) (i : S393216x32.Idx) :
    i ∈ ((cfg0.win 3).blk t).view.set ↔ ∀ a : Fin 2, win0_3.index t a * S4096x32.size a ≤ (i a).val ∧ (i a).val < win0_3.index t a * S4096x32.size a + S4096x32.size a := by
  show i ∈ ((View.whole main_call0_v27).slice (win0_3.rect t)).set ↔ _
  rw [View.set_slice_whole, Rect.mem_set_unit]
  exact Iff.rfl

/-- Row `r` is written back by point `r / 4096`: the blocks cover the array. -/
theorem covered (i : S393216x32.Idx) :
    ∃ t : Fin cfg0.N, (cfg0.win 3).flush t = true ∧ i ∈ ((cfg0.win 3).blk t).view.set := by
  have hi0 : (i 0).val < 393216 := (i 0).isLt
  have hi1 : (i 1).val < 32 := (i 1).isLt
  have hN : cfg0.N = 96 := N_0
  have hq : (i 0).val / 4096 < cfg0.N := by rw [hN]; omega
  obtain ⟨-, -, -, -, -, -, e0, e1⟩ := idx_facts ⟨(i 0).val / 4096, hq⟩
  refine ⟨⟨(i 0).val / 4096, hq⟩, flush0_3 _, ?_⟩
  rw [mem_blk]
  intro a
  match a with
  | ⟨0, _⟩ =>
    show win0_3.index ⟨(i 0).val / 4096, hq⟩ (0 : Fin 2) * 4096 ≤ (i 0).val ∧ (i 0).val < win0_3.index ⟨(i 0).val / 4096, hq⟩ (0 : Fin 2) * 4096 + 4096
    rw [e0]
    show (i 0).val / 4096 * 4096 ≤ (i 0).val ∧ (i 0).val < (i 0).val / 4096 * 4096 + 4096
    omega
  | ⟨1, _⟩ =>
    show win0_3.index ⟨(i 0).val / 4096, hq⟩ (1 : Fin 2) * 32 ≤ (i 1).val ∧ (i 1).val < win0_3.index ⟨(i 0).val / 4096, hq⟩ (1 : Fin 2) * 32 + 32
    rw [e1]
    omega

/-- THE RESULT ARRAY after the region: the row form of the arrays the region found. -/
theorem rows_final (c : Dev nD) : (dats m 0 c).arrAt 3 cfg0.N = rowsOf m c :=
  (dats m 0 c).arrAt_eq_of_cover 3 (rowsOf m c) (fun t _ => flushed_rows m c t) covered

end Cert.KernelIdeal.Rows

end
-- ==== Proof.KernelRun.lean ====
/-
  The kernel's whole program, read: what its result array holds after every run.

  Before the region the host computes, from the arguments, the gathered neighbour features — the same chain of operations
  as the reference's, with one extra change of float format on the pooled array, which is the identity on extended reals — and
  then flattens them to rows, transposes the weight and makes the bias a one-row matrix: these are the three arrays the region
  finds. After the region the host folds the result rows back into (batch, vertex, channel). With what the region leaves
  (`Rows.rows_final`) and the agreement of the row form with `linRelu` (`linRelu_of_rows`), the result is `linRelu` of the
  gathered features, the weight and the bias, and the arguments end as they were launched.

  The gathered features are named by the reference's own stage `val_main_v22` applied to THIS program's launch memory: the two
  programs spell that chain with the same operations, so it is carried as one function and never opened.
-/
import proofs.«151097_j68521908241109_2_alg».proof.Proof.Gen.KernelIdeal.Frame
import proofs.«151097_j68521908241109_2_alg».proof.Proof.Gen.ReferenceIdeal.Read
import proofs.«151097_j68521908241109_2_alg».proof.Proof.ArrayValue
import proofs.«151097_j68521908241109_2_alg».proof.Proof.Spec
import Idealize.ShloMosaic.Lib.StableHlo.Run
import Idealize.ShloMosaic.Lib.Pipeline.Value

noncomputable section

namespace Cert.KernelIdeal.Whole

open Cert.KernelIdeal Cert.KernelIdeal.Gen Idealize.ShloMosaic Idealize.ShloMosaic.TcCoe Idealize.SL.Sem Idealize.ShloMosaic.StableHlo
open Idealize.ShloMosaic.Pipeline (Dat)
open Cert.SpiralConv

variable (m : (ℓ : Loc nD τ sig) → Buf (Elt Ideal) ℓ) (ρ : Dev nD → PrngReg)

/-- The gathered neighbour features per (batch, vertex) of this program's launch memory. -/
abbrev feats (c : Dev nD) : Feat3.Idx → EReal :=
  Cert.ReferenceIdeal.Read.val_main_v22 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- A narrowing change of float format is the identity on extended reals. -/
theorem truncf_id {s : Shape} (a : FVec Ideal s .f32) (h : FTy.bits .bf16 < FTy.bits .f32) :
    (truncf .bf16 a h : FVec Ideal s .bf16) = a := rfl

/-- The features the region finds: the gathered features, flattened to rows. -/
theorem V_feat (c : Dev nD) :
    (V m c main_call0_v24 : S393216x576.Idx → Elt Ideal .bf16) = shapeCast S393216x576 (feats m c) Facts₀.shapeCasts_S8x49152x576_S393216x576 := by
  show StableHlo.after hostOps0 (fun b => m (c, b)) (Proc.devRef .tc main_call0_v24) = _
  after_results_simp
  simp only [truncf_id]
  rfl

/-- The weight the region finds: the argument, transposed. -/
theorem V_wt (c : Dev nD) :
    (V m c main_call0_v25 : S576x32.Idx → Elt Ideal .f32) = transpose S576x32 [1, 0] (m ((c.tc : Thread nD τ).loc main_arg5)) Facts₀.transposes_S32x576_S576x32_1_0 := by
  show StableHlo.after hostOps0 (fun b => m (c, b)) (Proc.devRef .tc main_call0_v25) = _
  after_results_simp
  rfl

/-- The bias the region finds: the argument as a one-row matrix. -/
theorem V_bias (c : Dev nD) :
    (V m c main_call0_v26 : S1x32.Idx → Elt Ideal .f32) = shapeCast S1x32 (m ((c.tc : Thread nD τ).loc main_arg6)) Facts₀.shapeCasts_S32_S1x32 := by
  show StableHlo.after hostOps0 (fun b => m (c, b)) (Proc.devRef .tc main_call0_v26) = _
  after_results_simp
  rfl

/-- The result after the host's last line: the region's result rows folded back to (batch, vertex, channel). -/
theorem tail_eq (c : Dev nD) :
    (Pipeline.afterTail₀ cfgs (dats m) 0 (V0 m) [hostOps1] c main_v0 : S8x49152x32.Idx → Elt Ideal .f32)
      = shapeCast S8x49152x32 ((dats m 0 c).arrAt 3 cfg0.N) Facts₀.shapeCasts_S393216x32_S8x49152x32 := by
  unfold Pipeline.afterTail₀
  show StableHlo.after hostOps1 _ (Proc.devRef .tc main_v0) = _
  after_results
  refine congrArg (fun x => shapeCast S8x49152x32 x Facts₀.shapeCasts_S393216x32_S8x49152x32) ?_
  exact Pipeline.withArrays_arr spec0 launch0.win.arr_inj c _ _ 3

/-- THE RESULT: `linRelu` of the gathered features, the weight and the bias. -/
theorem result_eq (c : Dev nD) :
    (Pipeline.afterTail₀ cfgs (dats m) 0 (V0 m) [hostOps1] c main_v0 : S8x49152x32.Idx → Elt Ideal .f32)
      = linRelu (feats m c) (m ((c.tc : Thread nD τ).loc main_arg5)) (m ((c.tc : Thread nD τ).loc main_arg6)) := by
  rw [tail_eq, Rows.rows_final]
  show shapeCast S8x49152x32 (rowLinRelu (V m c main_call0_v24) (V m c main_call0_v25) (V m c main_call0_v26)) _ = _
  rw [V_feat, V_wt, V_bias]
  exact linRelu_of_rows (feats m c) _ _ _ _ _ _

/-- The run, read: the result array at `linRelu`, every argument as launched. -/
theorem run : θ_run defs (onTc (τ := τ) (main (F := Ideal))) ⟨m, fun _ => 0, ρ⟩ fun r => ∀ c : Dev nD,
      r.2.mem ((c.tc : Thread nD τ).loc main_v0) = linRelu (feats m c) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.RefValue.lean ====
/-
  The reference's result is `linRelu` of its own gathered features, its weight and its bias.

  Read one operation at a time from the result back to the gathered features: the final maximum against the zero splat, the
  sum with the bias broadcast over batch and vertex, and the contraction of the features' last axis with the weight's last
  axis. Each index the operations name is, coordinate by coordinate, the one `linRelu` uses; the gathered features themselves
  (everything up to the reshape to 576 features per vertex) are left as they are.
-/
import proofs.«151097_j68521908241109_2_alg».proof.Proof.Gen.ReferenceIdeal.Read
import proofs.«151097_j68521908241109_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SpiralConv

/-- The reference's last stage is `linRelu` of its features stage, the weight and the bias. -/
theorem result_eq (x0 : (⟨S8x12288x64, .f32⟩ : BufTy).Contents (Elt Ideal)) (x1 x2 : (⟨S147456, .i32⟩ : BufTy).Contents (Elt Ideal))
    (x3 : (⟨S147456, .f32⟩ : BufTy).Contents (Elt Ideal)) (x4 : (⟨S49152x9, .i32⟩ : BufTy).Contents (Elt Ideal))
    (x5 : (⟨S32x576, .f32⟩ : BufTy).Contents (Elt Ideal)) (x6 : (⟨S32, .f32⟩ : BufTy).Contents (Elt Ideal)) :
    val_main_v27 (F := Ideal) x0 x1 x2 x3 x4 x5 x6 = linRelu (val_main_v22 (F := Ideal) x0 x1 x2 x3 x4) x5 x6 := by
  funext i
  obtain ⟨p, n, o, rfl⟩ : ∃ (p : Fin 8) (n : Fin 49152) (o : Fin 32), i = ix3 p n o := ⟨i 0, i 1, i 2, eq_ix3 i⟩
  have el : ∀ k : Fin 576, lidx_main_v23 (ix3 p n o) k = ix3 p n k := fun k => funext fun a => Fin.ext (by
    match a with
    | ⟨0, _⟩ => rfl
    | ⟨1, _⟩ => rfl
    | ⟨2, _⟩ => rfl)
  have er : ∀ k : Fin 576, ridx_main_v23 (ix3 p n o) k = ix2 o k := fun k => funext fun a => Fin.ext (by
    match a with
    | ⟨0, _⟩ => rfl
    | ⟨1, _⟩ => rfl)
  have eb : idx_main_v24 (idx_main_v25 (ix3 p n o)) = ix1 o := funext fun a => Fin.ext (by
    match a with
    | ⟨0, _⟩ => rfl)
  rw [val_main_v27_apply, val_main_v26_apply, val_main_v23_apply, val_main_v25_apply, val_main_v24_apply,
    val_main_call0_v0_apply, val_main_call0_cst_apply, linRelu_ix]
  unfold linReluAt
  simp only [el, er, eb]
  rfl

end Cert.ReferenceIdeal.RefValue

end
-- ==== Proof.lean ====
/-
  Spiral convolution block: the kernel's entry point against its jnp reference, equal on the extended reals.

  Both programs first pool the input by a sparse matrix (gather rows of `x`, scale by `up_vals`, add into the rows
  `up_rows` names) and gather each vertex's nine spiral neighbours, 9 × 64 = 576 features per vertex; this chain of host
  operations is the same in both (the kernel's program also changes the pooled array's float format, which is the identity
  on extended reals), so it is carried as ONE function of the arguments and never opened. They differ in the last stage:

    reference : relu (einsum 'bnk,ok->bno' g w + bias)                              over (batch, vertex, channel);
    kernel    : rows r = batch · 49152 + vertex, 4096 rows per grid point, each point storing
                max (g_rows · wᵀ + bias_row) 0, and the rows folded back to (batch, vertex, channel) afterwards.

  Element by element both are  max (Σ_{k < 576} g (b, n, k) · w (o, k) + bias o) 0  — the same products under the same sum,
  only indexed differently — so the two results are one function (`Cert.SpiralConv.linRelu`) of the gathered features, the
  weight and the bias. No law of the extended reals that could fail at an infinity is used, so the finiteness of the inputs
  is not needed for the equality.

  The three frames are the generated ones (the reference's is its generated run with the result dropped); the idealization
  rewrote nothing, so `preserves` is trivial.
-/
import proofs.«151097_j68521908241109_2_alg».proof.Defs
import proofs.«151097_j68521908241109_2_alg».proof.Proof.Gen.Kernel
import proofs.«151097_j68521908241109_2_alg».proof.Proof.Gen.Kernel.Skeleton
import proofs.«151097_j68521908241109_2_alg».proof.Proof.Gen.Kernel.Launch
import proofs.«151097_j68521908241109_2_alg».proof.Proof.Gen.Kernel.Points
import proofs.«151097_j68521908241109_2_alg».proof.Proof.Gen.Kernel.Frame
import proofs.«151097_j68521908241109_2_alg».proof.Proof.Gen.KernelIdeal
import proofs.«151097_j68521908241109_2_alg».proof.Proof.Gen.KernelIdeal.Skeleton
import proofs.«151097_j68521908241109_2_alg».proof.Proof.Gen.KernelIdeal.Launch
import proofs.«151097_j68521908241109_2_alg».proof.Proof.Gen.KernelIdeal.Points
import proofs.«151097_j68521908241109_2_alg».proof.Proof.Gen.KernelIdeal.Frame
import proofs.«151097_j68521908241109_2_alg».proof.Proof.Gen.ReferenceIdeal
import proofs.«151097_j68521908241109_2_alg».proof.Proof.Gen.Pre_finite_inputs
import proofs.«151097_j68521908241109_2_alg».proof.Proof.Gen.ReferenceIdeal.Run
import proofs.«151097_j68521908241109_2_alg».proof.Proof.Gen.ReferenceIdeal.Read
import proofs.«151097_j68521908241109_2_alg».proof.Proof.KernelRun
import proofs.«151097_j68521908241109_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are `linRelu` of the gathered features, the weight and the bias of memories that agree on the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6⟩ := hagree c
  rw [(h c).1, Cert.ReferenceIdeal.Read.val_main_v27_eq, Cert.ReferenceIdeal.RefValue.result_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
